-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S2000x128 : Shape := ⟨2, ![2000, 128]⟩
abbrev S700000x128 : Shape := ⟨2, ![700000, 128]⟩
abbrev S1x128 : Shape := ⟨2, ![1, 128]⟩
abbrev S100000x64 : Shape := ⟨2, ![100000, 64]⟩
abbrev S2000x64 : Shape := ⟨2, ![2000, 64]⟩
abbrev S700000x64 : Shape := ⟨2, ![700000, 64]⟩
abbrev S1x64 : Shape := ⟨2, ![1, 64]⟩
abbrev S100000x1 : Shape := ⟨2, ![100000, 1]⟩
abbrev S128x1 : Shape := ⟨2, ![128, 1]⟩

abbrev nBuf : Space → Nat
  | .hbm => 100
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x600000, .i32⟩
  | .hbm, ⟨6, _⟩ => ⟨S100000, .i32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x1, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x64, .f32⟩
  | .hbm, ⟨75, _⟩ => ⟨S700000x1, .f32⟩
  | .hbm, ⟨76, _⟩ => ⟨S700000x64, .f32⟩
  | .hbm, ⟨77, _⟩ => ⟨S700000x64, .f32⟩
  | .hbm, ⟨78, _⟩ => ⟨S_, .f32⟩
  | .hbm, ⟨79, _⟩ => ⟨S100000x64, .f32⟩
  | .hbm, ⟨80, _⟩ => ⟨S700000x1, .i32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S128x64, .f32⟩
  | .hbm, ⟨85, _⟩ => ⟨S100000x1, .i32⟩
  | .hbm, ⟨86, _⟩ => ⟨S128x64, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S128, .f32⟩
  | .hbm, ⟨91, _⟩ => ⟨S100000x1, .i32⟩
  | .hbm, ⟨92, _⟩ => ⟨S128, .f32⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x64, .f32⟩
  | .hbm, ⟨99, _⟩ => ⟨S128x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_call1_v0 : Ref sig .tc := ⟨.hbm, 94, rfl⟩
abbrev main_call1_v1 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  shapeCasts_S2000x64_S2000x64 : S2000x64.ShapeCasts S2000x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x128_S128x128_S2000x128_1_0_0_1_n_n_wf : DotDims.WF S2000x128 S128x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S2000x128_S128x64_S2000x64_1_0_0_1_n_n_wf : DotDims.WF S2000x128 S128x64 S2000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S100000x1 : Shape := ⟨2, ![100000, 1]⟩
abbrev S128x1 : Shape := ⟨2, ![128, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x64, .f32⟩
  | 4 => ⟨S64, .f32⟩
  | 5 => ⟨S2x600000, .i32⟩
  | 6 => ⟨S100000, .i32⟩
  | 7 => ⟨S100000, .i32⟩
  | 8 => ⟨S1x600000, .i32⟩
  | 9 => ⟨S600000, .i32⟩
  | 10 => ⟨S700000, .i32⟩
  | 11 => ⟨S1x600000, .i32⟩
  | 12 => ⟨S600000, .i32⟩
  | 13 => ⟨S700000, .i32⟩
  | 14 => ⟨S100000x128, .f32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S700000, .i32⟩
  | 31 => ⟨S700000, .i1⟩
  | 32 => ⟨S_, .i32⟩
  | 33 => ⟨S700000, .i32⟩
  | 34 => ⟨S700000, .i32⟩
  | 35 => ⟨S700000, .i32⟩
  | 36 => ⟨S700000x1, .i32⟩
  | 37 => ⟨S700000, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000, .f32⟩
  | 47 => ⟨S700000, .f32⟩
  | 48 => ⟨S_, .i32⟩
  | 49 => ⟨S700000, .i32⟩
  | 50 => ⟨S700000, .i1⟩
  | 51 => ⟨S_, .i32⟩
  | 52 => ⟨S700000, .i32⟩
  | 53 => ⟨S700000, .i32⟩
  | 54 => ⟨S700000, .i32⟩
  | 55 => ⟨S700000x1, .i32⟩
  | 56 => ⟨S700000x128, .f32⟩
  | 57 => ⟨S700000x1, .f32⟩
  | 58 => ⟨S700000x128, .f32⟩
  | 59 => ⟨S700000x128, .f32⟩
  | 60 => ⟨S_, .f32⟩
  | 61 => ⟨S100000x128, .f32⟩
  | 62 => ⟨S700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S_, .f32⟩
  | 72 => ⟨S700000, .f32⟩
  | 73 => ⟨S_, .f32⟩
  | 74 => ⟨S100000, .f32⟩
  | 75 => ⟨S700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S700000, .i32⟩
  | 87 => ⟨S700000, .i1⟩
  | 88 => ⟨S_, .i32⟩
  | 89 => ⟨S700000, .i32⟩
  | 90 => ⟨S700000, .i32⟩
  | 91 => ⟨S700000, .i32⟩
  | 92 => ⟨S700000x1, .i32⟩
  | 93 => ⟨S700000, .f32⟩
  | 94 => ⟨S_, .i32⟩
  | 95 => ⟨S700000, .i32⟩
  | 96 => ⟨S700000, .i1⟩
  | 97 => ⟨S_, .i32⟩
  | 98 => ⟨S700000, .i32⟩
  | 99 => ⟨S700000, .i32⟩
  | 100 => ⟨S700000, .i32⟩
  | 101 => ⟨S700000x1, .i32⟩
  | 102 => ⟨S700000, .f32⟩
  | 103 => ⟨S700000, .f32⟩
  | 104 => ⟨S_, .i32⟩
  | 105 => ⟨S700000, .i32⟩
  | 106 => ⟨S700000, .i1⟩
  | 107 => ⟨S_, .i32⟩
  | 108 => ⟨S700000, .i32⟩
  | 109 => ⟨S700000, .i32⟩
  | 110 => ⟨S700000, .i32⟩
  | 111 => ⟨S700000x1, .i32⟩
  | 112 => ⟨S700000x64, .f32⟩
  | 113 => ⟨S700000x1, .f32⟩
  | 114 => ⟨S700000x64, .f32⟩
  | 115 => ⟨S700000x64, .f32⟩
  | 116 => ⟨S_, .f32⟩
  | 117 => ⟨S100000x64, .f32⟩
  | 118 => ⟨S700000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S128x64, .f32⟩
  | 125 => ⟨S100000x1, .i32⟩
  | 126 => ⟨S128x64, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S128, .f32⟩
  | 3 => ⟨S100000x1, .i32⟩
  | 4 => ⟨S128, .f32⟩
  | 5 => ⟨S_, .f32⟩
  | 6 => ⟨S_, .f32⟩
  | 7 => ⟨S128, .f32⟩
  | 8 => ⟨S128, .f32⟩
  | 9 => ⟨S128x1, .f32⟩
  | 10 => ⟨S128x64, .f32⟩
  | 11 => ⟨S128x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_23 : Ref sig .tc := ⟨.hbm, 133, rfl⟩
abbrev main_call3_v0 : Ref sig .tc := ⟨.hbm, 134, rfl⟩
abbrev main_call3_v1 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.WholeRun.lean ====
/-
  The idealized kernel's whole run, with every buffer kept.

  The program is twelve segments: host operations, the first matrix product, host operations, the bias-and-rectifier pass,
  the second matrix product, host operations, the bias pass, host operations. The contents of the TensorCore's buffers at
  each boundary between segments are a fold from the launch memory: a stretch of host operations applies them in order;
  a pipelined region leaves each of its arrays at what its write-backs make of it and every other buffer as it found it.
  Every weakly fair execution from a memory with zero counters terminates without a fault, and in the final state EVERY
  unscoped buffer holds the last boundary's contents. The frame claim keeps only the seven argument buffers of this;
  the value claim needs the result buffer, so the statement here keeps them all.
-/
import proofs.«103272_j26654567039528_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the contents the fold through the twelve segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer and the seven argument buffers, read off the whole run. -/
theorem run_result : θ_run defs (onTc (τ := τ) (main (F := F))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v70 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c)⟩)
    (run_all m ρ)

end Cert.KernelIdeal.WholeRun

end
-- ==== Proof.HostGlue.lean ====
/-
  The host operations between the pipelined calls, one stretch at a time, read against the reference program's stages.

  Around its four pipelined calls the kernel's program runs the same host operations as the reference: it lists the edges'
  source and target nodes (each edge list followed by one self loop per node), counts the edges into every node, takes the
  inverse square root of the positive counts, and forms for every edge the product of the two factors at its ends; after each
  matrix product it gathers the product's rows at the sources (negative indices wrapped once), scales every gathered row by
  its edge's factor, and adds the rows up at the targets; at the end it adds up the nodes' rows per graph and divides by the
  number of nodes of the graph, at least one. Each lemma here takes ANY contents `W` of the buffers before a stretch, with
  what the stretch reads from them given as hypotheses, and says that the buffer the stretch produces holds the value the
  reference program computes at the same place (the reference's stage of the same operation, as a function of the
  arguments).
-/
import proofs.«103272_j26654567039528_1_alg».proof.Proof.Gen.KernelIdeal.Launch
import proofs.«103272_j26654567039528_1_alg».proof.Proof.RefReadP
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v13 val_main_v14 val_main_cst_2 val_main_v15 val_main_v30
  val_main_v7 val_main_v43 val_main_v47 val_main_v48 val_main_v84 val_main_v87 val_main_v98)

/-- Evaluates `after ops W b` for a literal list of host operations: each operation's result at its own buffer is its
    function's value, at any other buffer what was there. One simp pass, then the same rewriting inside the pieces of a
    concatenation, which the simp pass does not enter. -/
local macro "host_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable (W : Valuation τ sig (Elt Ideal))

/-! ## What each stretch computes -/

/-- The edges' sources, followed by one self loop per node. -/
theorem sources_after : after hostOps0 W (Proc.devRef .tc main_v3) = val_main_v3 (F := Ideal) (W (Proc.devRef .tc main_arg5)) := by
  host_results; rfl

/-- The edges' targets, followed by one self loop per node. -/
theorem targets_after : after hostOps0 W (Proc.devRef .tc main_v6) = val_main_v6 (F := Ideal) (W (Proc.devRef .tc main_arg5)) := by
  host_results; rfl

/-- Which nodes have an edge into them. -/
theorem positive_after : after hostOps0 W (Proc.devRef .tc main_v12) = val_main_v13 (F := Ideal) (W (Proc.devRef .tc main_arg5)) := by
  host_results; rfl

/-- The inverse square roots of the nodes' edge counts. -/
theorem rsqrt_after : after hostOps0 W (Proc.devRef .tc main_v13) = val_main_v14 (F := Ideal) (W (Proc.devRef .tc main_arg5)) := by
  host_results; rfl

/-- The zero that stands for a node without edges. -/
theorem zero_after : after hostOps0 W (Proc.devRef .tc main_cst_2) = val_main_cst_2 (F := Ideal) := by
  host_results; rfl

/-- The nodes' factors: the inverse square root of the count where it is positive, zero elsewhere — stated for ANY
    three values the stretch reads (the comparison's result, the inverse square roots, the zero). -/
theorem factors_after (p : (⟨S100000, .i1⟩ : BufTy).Contents (Elt Ideal)) (r : (⟨S100000, .f32⟩ : BufTy).Contents (Elt Ideal)) (z : (⟨S_, .f32⟩ : BufTy).Contents (Elt Ideal))
    (h12 : W (Proc.devRef .tc main_v12) = p) (h13 : W (Proc.devRef .tc main_v13) = r)
    (hc : W (Proc.devRef .tc main_cst_2) = z) :
    after hostOps0_1 W (Proc.devRef .tc main_v14) = select p r (broadcastInDim S100000 ![] bcast_S_S100000 (id z)) := by
  host_results; rw [h12, h13, hc]; rfl

/-- At the reference's three values that is the reference's stage. -/
theorem factors_stage (x5 : (⟨S2x600000, .i32⟩ : BufTy).Contents (Elt Ideal)) :
    select (val_main_v13 (F := Ideal) x5) (val_main_v14 (F := Ideal) x5)
        (broadcastInDim S100000 ![] bcast_S_S100000 (id (val_main_cst_2 (F := Ideal))))
      = val_main_v15 (F := Ideal) x5 := rfl

/-- The edges' factors: the product of the factors of an edge's two ends. -/
theorem edge_factors_after (x5 : (⟨S2x600000, .i32⟩ : BufTy).Contents (Elt Ideal))
    (h3 : W (Proc.devRef .tc main_v3) = val_main_v3 (F := Ideal) x5) (h6 : W (Proc.devRef .tc main_v6) = val_main_v6 (F := Ideal) x5)
    (h14 : W (Proc.devRef .tc main_v14) = val_main_v15 (F := Ideal) x5) :
    after hostOps0_2 W (Proc.devRef .tc main_v29) = val_main_v30 (F := Ideal) x5 := by
  host_results; rw [h3, h6, h14]; rfl

/-- The first layer's aggregation: the product's rows gathered at the sources, scaled, added up at the targets. -/
theorem aggregate1_after (x0 : (⟨S100000x128, .f32⟩ : BufTy).Contents (Elt Ideal)) (x1 : (⟨S128x128, .f32⟩ : BufTy).Contents (Elt Ideal)) (x5 : (⟨S2x600000, .i32⟩ : BufTy).Contents (Elt Ideal))
    (h30 : W (Proc.devRef .tc main_v30) = val_main_v7 (F := Ideal) x0 x1)
    (h3 : W (Proc.devRef .tc main_v3) = val_main_v3 (F := Ideal) x5) (h6 : W (Proc.devRef .tc main_v6) = val_main_v6 (F := Ideal) x5)
    (h29 : W (Proc.devRef .tc main_v29) = val_main_v30 (F := Ideal) x5) :
    after hostOps1 W (Proc.devRef .tc main_v43) = val_main_v43 (F := Ideal) x0 x1 x5 := by
  host_results; rw [h30, h3, h6, h29]; rfl

/-- The second layer's aggregation. -/
theorem aggregate2_after (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x5 : (⟨S2x600000, .i32⟩ : BufTy).Contents (Elt Ideal))
    (h45 : W (Proc.devRef .tc main_v45) = val_main_v48 (F := Ideal) x0 x1 x2 x3 x5)
    (h3 : W (Proc.devRef .tc main_v3) = val_main_v3 (F := Ideal) x5) (h6 : W (Proc.devRef .tc main_v6) = val_main_v6 (F := Ideal) x5)
    (h29 : W (Proc.devRef .tc main_v29) = val_main_v30 (F := Ideal) x5) :
    after hostOps3 W (Proc.devRef .tc main_v58) = val_main_v84 (F := Ideal) x0 x1 x2 x3 x5 := by
  host_results; rw [h45, h3, h6, h29]; rfl

/-- The mean over each graph's nodes. -/
theorem pool_after (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 : (⟨S2x600000, .i32⟩ : BufTy).Contents (Elt Ideal)) (x6 : (⟨S100000, .i32⟩ : BufTy).Contents (Elt Ideal))
    (h59 : W (Proc.devRef .tc main_v59) = val_main_v87 (F := Ideal) x0 x1 x2 x3 x4 x5)
    (h6 : W (Proc.devRef .tc main_arg6) = x6) :
    after hostOps4_2 (after hostOps4_1 (after hostOps4 W)) (Proc.devRef .tc main_v70)
      = val_main_v98 (F := Ideal) x0 x1 x2 x3 x4 x5 x6 := by
  host_results; rw [h59, h6]; rfl

end Cert.KernelIdeal.HostGlue

end
-- ==== Proof.Untouched.lean ====
/-
  Which buffers a stretch of host operations leaves as they were.

  A host operation writes one buffer, its result's. A buffer that is the result of none of a stretch's operations holds after
  the stretch what it held before: the arguments through every stretch, and the edges' sources, targets and factors through
  the stretches after the one that computed them.
-/
import proofs.«103272_j26654567039528_1_alg».proof.Proof.Gen.KernelIdeal.Launch
import Idealize.ShloMosaic.Lib.StableHlo.Run

noncomputable section

namespace Cert.KernelIdeal.Untouched

open Cert.KernelIdeal Cert.KernelIdeal.Gen
open Idealize.ShloMosaic Idealize.ShloMosaic.TcCoe Idealize.SL.Sem Idealize.ShloMosaic.StableHlo

/-- A buffer none of a literal list of host operations writes keeps its contents. -/
local macro "untouched" ops:ident : tactic =>
  `(tactic| (refine after_of_forall_not_mem _ _ (List.forall_iff_forall_mem.mp ?_)
             simp only [$ops:ident, List.Forall, nullary_writes, unary_writes, binary_writes, ternary_writes, quaternary_writes,
               reshape_writes, binaryIndexed_writes, Finset.mem_singleton]
             repeat' apply And.intro
             all_goals exact devRef_ne_of_ne (by decide)))

variable {F : FTy → Type} [FloatOps F] (W : Valuation τ sig (Elt F))

/-! ### `hostOps0` -/
theorem keep_hostOps0_main_arg0 : after hostOps0 W (Proc.devRef .tc main_arg0) = W (Proc.devRef .tc main_arg0) := by untouched hostOps0
theorem keep_hostOps0_main_arg1 : after hostOps0 W (Proc.devRef .tc main_arg1) = W (Proc.devRef .tc main_arg1) := by untouched hostOps0
theorem keep_hostOps0_main_arg2 : after hostOps0 W (Proc.devRef .tc main_arg2) = W (Proc.devRef .tc main_arg2) := by untouched hostOps0
theorem keep_hostOps0_main_arg3 : after hostOps0 W (Proc.devRef .tc main_arg3) = W (Proc.devRef .tc main_arg3) := by untouched hostOps0
theorem keep_hostOps0_main_arg4 : after hostOps0 W (Proc.devRef .tc main_arg4) = W (Proc.devRef .tc main_arg4) := by untouched hostOps0
theorem keep_hostOps0_main_arg6 : after hostOps0 W (Proc.devRef .tc main_arg6) = W (Proc.devRef .tc main_arg6) := by untouched hostOps0

/-! ### `hostOps0_1` -/
theorem keep_hostOps0_1_main_arg0 : after hostOps0_1 W (Proc.devRef .tc main_arg0) = W (Proc.devRef .tc main_arg0) := by untouched hostOps0_1
theorem keep_hostOps0_1_main_arg1 : after hostOps0_1 W (Proc.devRef .tc main_arg1) = W (Proc.devRef .tc main_arg1) := by untouched hostOps0_1
theorem keep_hostOps0_1_main_arg2 : after hostOps0_1 W (Proc.devRef .tc main_arg2) = W (Proc.devRef .tc main_arg2) := by untouched hostOps0_1
theorem keep_hostOps0_1_main_arg3 : after hostOps0_1 W (Proc.devRef .tc main_arg3) = W (Proc.devRef .tc main_arg3) := by untouched hostOps0_1
theorem keep_hostOps0_1_main_arg4 : after hostOps0_1 W (Proc.devRef .tc main_arg4) = W (Proc.devRef .tc main_arg4) := by untouched hostOps0_1
theorem keep_hostOps0_1_main_arg6 : after hostOps0_1 W (Proc.devRef .tc main_arg6) = W (Proc.devRef .tc main_arg6) := by untouched hostOps0_1
theorem keep_hostOps0_1_main_v3 : after hostOps0_1 W (Proc.devRef .tc main_v3) = W (Proc.devRef .tc main_v3) := by untouched hostOps0_1
theorem keep_hostOps0_1_main_v6 : after hostOps0_1 W (Proc.devRef .tc main_v6) = W (Proc.devRef .tc main_v6) := by untouched hostOps0_1

/-! ### `hostOps0_2` -/
theorem keep_hostOps0_2_main_arg0 : after hostOps0_2 W (Proc.devRef .tc main_arg0) = W (Proc.devRef .tc main_arg0) := by untouched hostOps0_2
theorem keep_hostOps0_2_main_arg1 : after hostOps0_2 W (Proc.devRef .tc main_arg1) = W (Proc.devRef .tc main_arg1) := by untouched hostOps0_2
theorem keep_hostOps0_2_main_arg2 : after hostOps0_2 W (Proc.devRef .tc main_arg2) = W (Proc.devRef .tc main_arg2) := by untouched hostOps0_2
theorem keep_hostOps0_2_main_arg3 : after hostOps0_2 W (Proc.devRef .tc main_arg3) = W (Proc.devRef .tc main_arg3) := by untouched hostOps0_2
theorem keep_hostOps0_2_main_arg4 : after hostOps0_2 W (Proc.devRef .tc main_arg4) = W (Proc.devRef .tc main_arg4) := by untouched hostOps0_2
theorem keep_hostOps0_2_main_arg6 : after hostOps0_2 W (Proc.devRef .tc main_arg6) = W (Proc.devRef .tc main_arg6) := by untouched hostOps0_2
theorem keep_hostOps0_2_main_v3 : after hostOps0_2 W (Proc.devRef .tc main_v3) = W (Proc.devRef .tc main_v3) := by untouched hostOps0_2
theorem keep_hostOps0_2_main_v6 : after hostOps0_2 W (Proc.devRef .tc main_v6) = W (Proc.devRef .tc main_v6) := by untouched hostOps0_2

/-! ### `hostOps1` -/
theorem keep_hostOps1_main_arg2 : after hostOps1 W (Proc.devRef .tc main_arg2) = W (Proc.devRef .tc main_arg2) := by untouched hostOps1
theorem keep_hostOps1_main_arg3 : after hostOps1 W (Proc.devRef .tc main_arg3) = W (Proc.devRef .tc main_arg3) := by untouched hostOps1
theorem keep_hostOps1_main_arg4 : after hostOps1 W (Proc.devRef .tc main_arg4) = W (Proc.devRef .tc main_arg4) := by untouched hostOps1
theorem keep_hostOps1_main_arg6 : after hostOps1 W (Proc.devRef .tc main_arg6) = W (Proc.devRef .tc main_arg6) := by untouched hostOps1
theorem keep_hostOps1_main_v3 : after hostOps1 W (Proc.devRef .tc main_v3) = W (Proc.devRef .tc main_v3) := by untouched hostOps1
theorem keep_hostOps1_main_v6 : after hostOps1 W (Proc.devRef .tc main_v6) = W (Proc.devRef .tc main_v6) := by untouched hostOps1
theorem keep_hostOps1_main_v29 : after hostOps1 W (Proc.devRef .tc main_v29) = W (Proc.devRef .tc main_v29) := by untouched hostOps1

/-! ### `hostOps3` -/
theorem keep_hostOps3_main_arg4 : after hostOps3 W (Proc.devRef .tc main_arg4) = W (Proc.devRef .tc main_arg4) := by untouched hostOps3
theorem keep_hostOps3_main_arg6 : after hostOps3 W (Proc.devRef .tc main_arg6) = W (Proc.devRef .tc main_arg6) := by untouched hostOps3

end Cert.KernelIdeal.Untouched

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«103272_j26654567039528_1_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.LibLayerOps.lean ====
/-
  The three array operations the network is made of, as plain functions on arrays of extended reals, index by index:

    * `matProd x w`, the product of an `[M, K]` array and a `[K, N]` array: entry `(p, q)` is `∑ k, x (p, k) · w (k, q)`;
    * `addRow a b`, a row `b` of length `N` added to every row of an `[M, N]` array: entry `(p, q)` is `a (p, q) + b q`;
    * `reluRow a b`, the same followed by the rectifier: entry `(p, q)` is `max (a (p, q) + b q) 0`.

  An entry of any of them depends on ONE row of the first operand only, which is why a pass over blocks of rows computes them.
  The host's `dot_general` with one contracted axis is `matProd` (both are that sum at every entry).
-/
import Idealize.ShloMosaic.PureOps.Ideal.Laws
import Idealize.ShloMosaic.Lib.ValueIdx
import proofs.«103272_j26654567039528_1_alg».proof.Proof.LibPlainMatmul
import proofs.«103272_j26654567039528_1_alg».proof.Proof.LibPlainDot

noncomputable section

open scoped BigOperators

namespace Cert.Layers

open Idealize.ShloMosaic Idealize.ShloMosaic.ValueIdx

/-- The product of an `[M, K]` and a `[K, N]` array. -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem matProd_ix2 {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A row added to every row of an array. -/
def addRow {M N : ℕ} (a : FVec Ideal ⟨2, ![M, N]⟩ .f32) (b : FVec Ideal ⟨1, ![N]⟩ .f32) : FVec Ideal ⟨2, ![M, N]⟩ .f32 :=
  fun i => a i + b (ix1 (i 1))

theorem addRow_ix2 {M N : ℕ} (a : FVec Ideal ⟨2, ![M, N]⟩ .f32) (b : FVec Ideal ⟨1, ![N]⟩ .f32) (p : Fin M) (q : Fin N) :
    addRow a b (ix2 p q) = a (ix2 p q) + b (ix1 q) := rfl

/-- A row added to every row of an array, then the rectifier. -/
def reluRow {M N : ℕ} (a : FVec Ideal ⟨2, ![M, N]⟩ .f32) (b : FVec Ideal ⟨1, ![N]⟩ .f32) : FVec Ideal ⟨2, ![M, N]⟩ .f32 :=
  fun i => max (a i + b (ix1 (i 1))) 0

theorem reluRow_ix2 {M N : ℕ} (a : FVec Ideal ⟨2, ![M, N]⟩ .f32) (b : FVec Ideal ⟨1, ![N]⟩ .f32) (p : Fin M) (q : Fin N) :
    reluRow a b (ix2 p q) = max (a (ix2 p q) + b (ix1 q)) 0 := rfl

/-- The host's product with one contracted axis is `matProd`. -/
theorem dot_eq_matProd {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32) :
    Host.dotGeneral D prec x w = matProd x w := by
  funext i
  obtain ⟨p, q, rfl⟩ : ∃ (p : Fin M) (q : Fin N), i = ix2 p q := ⟨i 0, i 1, eq_ix2 i⟩
  rw [Cert.LibPlainDot.dot_plain_apply D hD, matProd_ix2]

end Cert.Layers

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«103272_j26654567039528_1_alg».proof.Proof.LibDenseLayer
import proofs.«103272_j26654567039528_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibBiasRowForms.lean ====
/-
  A bias row added to every row of an array, and the rectifier after it, as a vector unit spells them and as a host program
  spells them.

  The vector unit reads the `[M, N]` array through a shape cast that changes nothing, lifts the bias of length `N` to a
  `[1, N]` row by a shape cast, and broadcasts that row over the `M` rows. The host program lifts the bias to a `[1, N]`
  row by a broadcast along a new leading axis and broadcasts that row over the rows. Entry `(p, q)` of either sum is
  `a (p, q) + b q`: both are `addRow a b`. The rectifier after it is `reluRow a b` in both spellings (a scalar zero
  broadcast to the shape on the vector unit, a rank-0 zero constant broadcast to the shape on the host).
-/
import proofs.«103272_j26654567039528_1_alg».proof.Proof.LibLayerOps
import proofs.«103272_j26654567039528_1_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

namespace Cert.Layers

open Idealize.ShloMosaic Idealize.ShloMosaic.ValueIdx

/-- The rectified sum is the rectifier of the sum. -/
theorem reluRow_eq {M N : ℕ} (a : FVec Ideal ⟨2, ![M, N]⟩ .f32) (b : FVec Ideal ⟨1, ![N]⟩ .f32) :
    reluRow a b = Cert.LayerForms.relu (addRow a b) := rfl

/-- The bias row added to every row, as a vector unit spells it. -/
theorem vec_addRow {M N : ℕ} (a : FVec Ideal ⟨2, ![M, N]⟩ .f32) (b : FVec Ideal ⟨1, ![N]⟩ .f32)
    (hs : (⟨2, ![M, N]⟩ : Shape).ShapeCasts ⟨2, ![M, N]⟩) (hc : (⟨1, ![N]⟩ : Shape).ShapeCasts ⟨2, ![1, N]⟩)
    (hb : (⟨2, ![1, N]⟩ : Shape).Broadcasts ⟨2, ![M, N]⟩) :
    addf (shapeCast ⟨2, ![M, N]⟩ a hs) (broadcastTo ⟨2, ![M, N]⟩ (shapeCast ⟨2, ![1, N]⟩ b hc) hb) = addRow a b := by
  funext i
  obtain ⟨p, q, rfl⟩ : ∃ (p : Fin M) (q : Fin N), i = ix2 p q := ⟨i 0, i 1, eq_ix2 i⟩
  show shapeCast ⟨2, ![M, N]⟩ a hs (ix2 p q) + broadcastTo ⟨2, ![M, N]⟩ (shapeCast ⟨2, ![1, N]⟩ b hc) hb (ix2 p q)
    = a (ix2 p q) + b (ix1 q)
  rw [shapeCast_self, broadcastTo_1b_ab_apply, shapeCast_a_1a_apply]

/-- The bias row added to every row, as a host program spells it. -/
theorem host_addRow {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf a (broadcastInDim ⟨2, ![M, N]⟩ ![0, 1] h2 (broadcastInDim ⟨2, ![1, N]⟩ ![1] h1 b)) = addRow a b := by
  funext i
  obtain ⟨p, q, rfl⟩ : ∃ (p : Fin M) (q : Fin N), i = ix2 p q := ⟨i 0, i 1, eq_ix2 i⟩
  show a (ix2 p q) + broadcastInDim ⟨2, ![M, N]⟩ ![0, 1] h2 (broadcastInDim ⟨2, ![1, N]⟩ ![1] h1 b) (ix2 p q)
    = a (ix2 p q) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun ax => ?_
    match ax with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun ax => ?_
    match ax with
    | ⟨0, _⟩ =>
      show q.val = if N = 1 then 0 else q.val
      split
      · have := q.isLt; omega
      · rfl
  rw [e2, e1]

/-- The bias row and the rectifier, as a vector unit spells them. -/
theorem vec_reluRow {M N : ℕ} (a : FVec Ideal ⟨2, ![M, N]⟩ .f32) (b : FVec Ideal ⟨1, ![N]⟩ .f32)
    (hs : (⟨2, ![M, N]⟩ : Shape).ShapeCasts ⟨2, ![M, N]⟩) (hc : (⟨1, ![N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluRow a b := by
  rw [vec_addRow, Cert.LayerForms.vec_relu, reluRow_eq]

/-- The bias row and the rectifier, as a host program spells them. -/
theorem host_reluRow {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluRow a b := by
  rw [host_addRow, Cert.LayerForms.host_relu, reluRow_eq]

end Cert.Layers

end
-- ==== Proof.RefStages.lean ====
/-
  Four of the reference program's stages as the network's array operations.

  The reference computes the first layer's product by a general dot product with one contracted axis; adds the first bias,
  lifted to a row and broadcast over the rows, and takes the maximum with a zero constant broadcast to the shape; computes the
  second layer's product the same way; and adds the second bias the same way. At every entry these are the product of the
  arrays, the rectified sum with the bias row, the product, and the sum with the bias row.
-/
import proofs.«103272_j26654567039528_1_alg».proof.Proof.RefReadP
import proofs.«103272_j26654567039528_1_alg».proof.Proof.LibBiasRowForms

noncomputable section

namespace Cert.ReferenceIdeal.Stages

open Cert.ReferenceIdeal Cert.ReferenceIdeal.ReadP Cert.Layers
open Idealize.ShloMosaic

/-- The first layer's product. -/
theorem product1 (x0 : (⟨S100000x128, .f32⟩ : BufTy).Contents (Elt Ideal)) (x1 : (⟨S128x128, .f32⟩ : BufTy).Contents (Elt Ideal)) :
    val_main_v7 (F := Ideal) x0 x1 = matProd (M := 100000) (K := 128) (N := 128) x0 x1 := by
  unfold val_main_v7
  exact dot_eq_matProd _ rfl none x0 x1

/-- The first layer's bias and rectifier. -/
theorem rectified (x0 : (⟨S100000x128, .f32⟩ : BufTy).Contents (Elt Ideal)) (x1 : (⟨S128x128, .f32⟩ : BufTy).Contents (Elt Ideal)) (x2 : (⟨S128, .f32⟩ : BufTy).Contents (Elt Ideal))
    (x5 : (⟨S2x600000, .i32⟩ : BufTy).Contents (Elt Ideal)) :
    val_main_v47 (F := Ideal) x0 x1 x2 x5
      = reluRow (M := 100000) (N := 128) (val_main_v43 (F := Ideal) x0 x1 x5) x2 := by
  unfold val_main_v47 val_main_v46 val_main_v45 val_main_v44 val_main_call1_v0 val_main_call1_cst
  exact host_reluRow _ x2 _ _ _

/-- The second layer's product. -/
theorem product2 (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x5 : (⟨S2x600000, .i32⟩ : BufTy).Contents (Elt Ideal)) :
    val_main_v48 (F := Ideal) x0 x1 x2 x3 x5
      = matProd (M := 100000) (K := 128) (N := 64) (val_main_v47 (F := Ideal) x0 x1 x2 x5) x3 := by
  unfold val_main_v48
  exact dot_eq_matProd _ rfl none _ x3

/-- The second layer's bias. -/
theorem biased (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 : (⟨S2x600000, .i32⟩ : BufTy).Contents (Elt Ideal)) :
    val_main_v87 (F := Ideal) x0 x1 x2 x3 x4 x5
      = addRow (M := 100000) (N := 64) (val_main_v84 (F := Ideal) x0 x1 x2 x3 x5) x4 := by
  unfold val_main_v87 val_main_v86 val_main_v85
  exact host_addRow _ x4 _ _

end Cert.ReferenceIdeal.Stages

end
-- ==== Proof.Region0.lean ====
/-
  The first matrix product, region by region of rows.

  The pipelined call runs its body at fifty grid points. At point `t` the body holds rows `2000·t … 2000·t + 1999` of the
  left array, the whole right array, and writes rows `2000·t … 2000·t + 1999` of the result: the product of its block of
  rows with the right array, accumulated into zero (a change of float format is the identity on the extended reals).
  Entry `(p, q)` of that block is `∑ k, x (2000·t + p, k) · w (k, q)`, which is entry `(2000·t + p, q)` of the product
  of the whole arrays; the fifty blocks of rows tile the result. So after the call the result array IS the product of the
  two arrays as the call found them.
-/
import proofs.«103272_j26654567039528_1_alg».proof.Proof.Gen.KernelIdeal.Frame
import proofs.«103272_j26654567039528_1_alg».proof.Proof.LibLayerOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at `(p, q)`: row `p` of its left block against column `q` of the right array. -/
theorem stored_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.LibPlainMatmul.matmul_plain_zero_apply _ rfl none _ _ p q

/-- An entry of the block's product is the entry of the whole product in the row the block's row is. -/
theorem block_entry (X : FVec Ideal S100000x128 .f32) (W : FVec Ideal S128x128 .f32)
    (x0 : Vec Ideal S2000x128 .f32) (x1 : Vec Ideal S128x128 .f32) (p : Fin 2000) (q : Fin 128) (P : Fin 100000)
    (hx0 : ∀ k : Fin 128, x0 (ix2 p k) = X (ix2 P k)) (hx1 : ∀ k : Fin 128, x1 (ix2 k q) = W (ix2 k q)) :
    k0_pay1 x0 x1 (ix2 p q) = matProd (M := 100000) (K := 128) (N := 128) X W (ix2 P q) := by
  rw [stored_apply, matProd_ix2]
  exact Finset.sum_congr rfl fun k _ => by rw [hx0 k, hx1 k]

/-- Where the three windows' blocks sit at grid point `t`: the left array's and the result's at block row `t`, the right
    array's at the origin. -/
theorem block_origin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point `t` writes back is block `t` of the product of the arrays as the call finds them. -/
theorem flushed_eq (c : Dev nD) (t : Fin cfg0.N) :
    (dat0 V c).flushed 2 t = ((cfg0.win 2).blk t).view.read (Elt Ideal)
      (matProd (M := 100000) (K := 128) (N := 128) (V c main_arg0) (V c main_arg1)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x128) origin2]
  obtain ⟨e0, e1, e2, e3, e4, e5⟩ := block_origin t
  funext j
  obtain ⟨p, q, rfl⟩ : ∃ (p : Fin 2000) (q : Fin 128), j = ix2 p q := ⟨j 0, j 1, eq_ix2 j⟩
  have hP : t.val * 2000 + p.val < 100000 := by
    have hN : cfg0.N = 50 := N_0
    have := t.isLt; have := p.isLt; omega
  have hE : ((cfg0.win 2).blk t).view.emb (ix2 p q) = ix2 (⟨t.val * 2000 + p.val, hP⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q)
      = matProd (M := 100000) (K := 128) (N := 128) (V c main_arg0) (V c main_arg1) (((cfg0.win 2).blk t).view.emb (ix2 p q))
  rw [hE]
  refine block_entry (V c main_arg0) (V c main_arg1) _ _ p q ⟨t.val * 2000 + p.val, hP⟩ (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg1 (((cfg0.win 1).blk t).view.emb (ix2 k q)) = _
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An entry of the result array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every entry of the result array is written back by some point: row `r` by point `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by omega
  obtain ⟨-, -, -, -, e4, e5⟩ := block_origin ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]
    omega

/-- After the call the result array is the product of the two arrays as the call found them. -/
theorem final (c : Dev nD) :
    (dat0 V c).arrAt 2 cfg0.N = matProd (M := 100000) (K := 128) (N := 128) (V c main_arg0) (V c main_arg1) :=
  (dat0 V c).arrAt_eq_of_cover 2 _ (fun t _ => flushed_eq V c t) covered

end Cert.KernelIdeal.Region0

end
-- ==== Proof.Region1.lean ====
/-
  The bias-and-rectifier pass of the first layer, block of rows by block of rows.

  At grid point `t` the body holds rows `2000·t … 2000·t + 1999` of the aggregated array and the whole bias of length 128,
  and writes the same rows of the result: the bias added to every row of its block, then every entry clamped below at zero.
  Entry `(p, q)` of that block is `max (a (2000·t + p, q) + b q) 0`, the entry `(2000·t + p, q)` of the same operation on the
  whole array; the fifty blocks of rows tile the result. So after the call the result array IS `reluRow` of the array and
  the bias as the call found them.
-/
import proofs.«103272_j26654567039528_1_alg».proof.Proof.Gen.KernelIdeal.Frame
import proofs.«103272_j26654567039528_1_alg».proof.Proof.LibLayerOps
import proofs.«103272_j26654567039528_1_alg».proof.Proof.LibBiasRowForms
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The body's stored value, as one array operation of its two loads. -/
theorem stored_eq (x0 : Vec Ideal S2000x128 .f32) (x1 : Vec Ideal S128 .f32) :
    k1_pay1 x1 x0 = reluRow (M := 2000) (N := 128) x0 x1 := by
  unfold k1_pay1
  exact vec_reluRow x0 x1 _ _ _

/-- An entry of the body's result on a block of rows is the entry of the operation on the whole array in the row the
    block's row is. -/
theorem block_entry (A : FVec Ideal S100000x128 .f32) (B : FVec Ideal S128 .f32)
    (x0 : Vec Ideal S2000x128 .f32) (x1 : Vec Ideal S128 .f32) (p : Fin 2000) (q : Fin 128) (P : Fin 100000)
    (h0 : x0 (ix2 p q) = A (ix2 P q)) (h1 : x1 (ix1 q) = B (ix1 q)) :
    k1_pay1 x1 x0 (ix2 p q) = reluRow (M := 100000) (N := 128) A B (ix2 P q) := by
  rw [stored_eq, reluRow_ix2, reluRow_ix2, h0, h1]

/-- Where the three windows' blocks sit at grid point `t`: the array's and the result's at block row `t`, the bias at
    the origin. -/
theorem block_origin : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0)

/-- What point `t` writes back is block `t` of the operation on the arrays as the call finds them. -/
theorem flushed_eq (c : Dev nD) (t : Fin cfg1.N) :
    (dat1 V c).flushed 2 t = ((cfg1.win 2).blk t).view.read (Elt Ideal)
      (reluRow (M := 100000) (N := 128) (V c main_v43) (V c main_arg2)) := by
  show (cfg1.win 2).cut (grid1.coords t) ((dat1 V c).after 2 t) = _
  rw [after1_2]
  unfold out1_2
  rw [View.canon_unit_zero origin2]
  simp only [View.ld_unit_zero (S := S128) origin1, View.ld_unit_zero (S := S2000x128) origin2]
  obtain ⟨e0, e1, e2, e4, e5⟩ := block_origin t
  funext j
  obtain ⟨p, q, rfl⟩ : ∃ (p : Fin 2000) (q : Fin 128), j = ix2 p q := ⟨j 0, j 1, eq_ix2 j⟩
  have hP : t.val * 2000 + p.val < 100000 := by
    have hN : cfg1.N = 50 := N_1
    have := t.isLt; have := p.isLt; omega
  have hE : ((cfg1.win 2).blk t).view.emb (ix2 p q) = ix2 (⟨t.val * 2000 + p.val, hP⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  show k1_pay1 (iblk1 V c 1 t) (iblk1 V c 0 t) (ix2 p q)
      = reluRow (M := 100000) (N := 128) (V c main_v43) (V c main_arg2) (((cfg1.win 2).blk t).view.emb (ix2 p q))
  rw [hE]
  refine block_entry (V c main_v43) (V c main_arg2) _ _ p q ⟨t.val * 2000 + p.val, hP⟩ ?_ ?_
  · show V c main_v43 (((cfg1.win 0).blk t).view.emb (ix2 p q)) = _
    refine congrArg (V c main_v43) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  · show V c main_arg2 (((cfg1.win 1).blk t).view.emb (ix1 q)) = _
    refine congrArg (V c main_arg2) ?_
    funext a; apply Fin.ext
    match a with
    | ⟨0, _⟩ => show win1_1.index t (0 : Fin 1) * 128 + 1 * q.val = q.val; omega

/-- An entry of the result array is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v44).slice (win1_2.rect t)).set ↔ _
  rw [View.set_slice_whole, Rect.mem_set_unit]
  exact Iff.rfl

/-- Every entry of the result array is written back by some point: row `r` by point `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  have ht : (i 0).val / 2000 < cfg1.N := by omega
  obtain ⟨-, -, -, e4, e5⟩ := block_origin ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [e5]
    omega

/-- After the call the result array is the bias added to every row of the array the call found, rectified. -/
theorem final (c : Dev nD) :
    (dat1 V c).arrAt 2 cfg1.N = reluRow (M := 100000) (N := 128) (V c main_v43) (V c main_arg2) :=
  (dat1 V c).arrAt_eq_of_cover 2 _ (fun t _ => flushed_eq V c t) covered

end Cert.KernelIdeal.Region1

end
-- ==== Proof.Region2.lean ====
/-
  The second matrix product, block of rows by block of rows.

  As for the first product: at grid point `t` the body holds rows `2000·t … 2000·t + 1999` of the rectified hidden array
  (read through a shape cast that changes nothing), the whole `[128, 64]` weight array, and writes the same rows of the
  result: its block of rows times the weights, accumulated into zero. Entry `(p, q)` of that block is entry
  `(2000·t + p, q)` of the product of the whole arrays, and the fifty blocks of rows tile the result, so after the call the
  result array IS the product of the two arrays as the call found them.
-/
import proofs.«103272_j26654567039528_1_alg».proof.Proof.Gen.KernelIdeal.Frame
import proofs.«103272_j26654567039528_1_alg».proof.Proof.LibLayerOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at `(p, q)`: row `p` of its left block against column `q` of the right array. -/
theorem stored_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  refine (Cert.LibPlainMatmul.matmul_plain_zero_apply _ rfl none _ _ p q).trans ?_
  refine Finset.sum_congr rfl fun k _ => ?_
  show shapeCast S2000x128 x0 shapeCasts_S2000x128_S2000x128 (ix2 p k) * x1 (ix2 k q) = x0 (ix2 p k) * x1 (ix2 k q)
  rw [shapeCast_self]

/-- An entry of the block's product is the entry of the whole product in the row the block's row is. -/
theorem block_entry (X : FVec Ideal S100000x128 .f32) (W : FVec Ideal S128x64 .f32)
    (x0 : Vec Ideal S2000x128 .f32) (x1 : Vec Ideal S128x64 .f32) (p : Fin 2000) (q : Fin 64) (P : Fin 100000)
    (hx0 : ∀ k : Fin 128, x0 (ix2 p k) = X (ix2 P k)) (hx1 : ∀ k : Fin 128, x1 (ix2 k q) = W (ix2 k q)) :
    k2_pay1 x0 x1 (ix2 p q) = matProd (M := 100000) (K := 128) (N := 64) X W (ix2 P q) := by
  rw [stored_apply, matProd_ix2]
  exact Finset.sum_congr rfl fun k _ => by rw [hx0 k, hx1 k]

/-- Where the three windows' blocks sit at grid point `t`: the left array's and the result's at block row `t`, the right
    array's at the origin. -/
theorem block_origin : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- What point `t` writes back is block `t` of the product of the arrays as the call finds them. -/
theorem flushed_eq (c : Dev nD) (t : Fin cfg2.N) :
    (dat2 V c).flushed 2 t = ((cfg2.win 2).blk t).view.read (Elt Ideal)
      (matProd (M := 100000) (K := 128) (N := 64) (V c main_v44) (V c main_arg3)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x64) origin2]
  obtain ⟨e0, e1, e2, e3, e4, e5⟩ := block_origin t
  funext j
  obtain ⟨p, q, rfl⟩ : ∃ (p : Fin 2000) (q : Fin 64), j = ix2 p q := ⟨j 0, j 1, eq_ix2 j⟩
  have hP : t.val * 2000 + p.val < 100000 := by
    have hN : cfg2.N = 50 := N_2
    have := t.isLt; have := p.isLt; omega
  have hE : ((cfg2.win 2).blk t).view.emb (ix2 p q) = ix2 (⟨t.val * 2000 + p.val, hP⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  show k2_pay1 (iblk2 V c 0 t) (iblk2 V c 1 t) (ix2 p q)
      = matProd (M := 100000) (K := 128) (N := 64) (V c main_v44) (V c main_arg3) (((cfg2.win 2).blk t).view.emb (ix2 p q))
  rw [hE]
  refine block_entry (V c main_v44) (V c main_arg3) _ _ p q ⟨t.val * 2000 + p.val, hP⟩ (fun k => ?_) (fun k => ?_)
  · show V c main_v44 (((cfg2.win 0).blk t).view.emb (ix2 p k)) = _
    refine congrArg (V c main_v44) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_arg3 (((cfg2.win 1).blk t).view.emb (ix2 k q)) = _
    refine congrArg (V c main_arg3) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-- An entry of the result array is in point `t`'s block iff each coordinate is in the block's range on its axis. -/
theorem mem_block (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v45).slice (win2_2.rect t)).set ↔ _
  rw [View.set_slice_whole, Rect.mem_set_unit]
  exact Iff.rfl

/-- Every entry of the result array is written back by some point: row `r` by point `r / 2000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  have ht : (i 0).val / 2000 < cfg2.N := by omega
  obtain ⟨-, -, -, -, e4, e5⟩ := block_origin ⟨(i 0).val / 2000, ht⟩
  refine ⟨⟨(i 0).val / 2000, ht⟩, flush2_2 _, ?_⟩
  rw [mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e5]
    omega

/-- After the call the result array is the product of the two arrays as the call found them. -/
theorem final (c : Dev nD) :
    (dat2 V c).arrAt 2 cfg2.N = matProd (M := 100000) (K := 128) (N := 64) (V c main_v44) (V c main_arg3) :=
  (dat2 V c).arrAt_eq_of_cover 2 _ (fun t _ => flushed_eq V c t) covered

end Cert.KernelIdeal.Region2

end
-- ==== Proof.Region3.lean ====
/-
  The bias pass of the second layer, block of rows by block of rows.

  At grid point `t` the body holds rows `2000·t … 2000·t + 1999` of the aggregated array and the whole bias of length 64,
  and writes the same rows of the result: the bias added to every row of its block. Entry `(p, q)` of that block is
  `a (2000·t + p, q) + b q`, the entry `(2000·t + p, q)` of the same operation on the whole array; the fifty blocks of rows
  tile the result. So after the call the result array IS `addRow` of the array and the bias as the call found them.
-/
import proofs.«103272_j26654567039528_1_alg».proof.Proof.Gen.KernelIdeal.Frame
import proofs.«103272_j26654567039528_1_alg».proof.Proof.LibLayerOps
import proofs.«103272_j26654567039528_1_alg».proof.Proof.LibBiasRowForms
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Cert.KernelIdeal Cert.KernelIdeal.Gen Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The body's stored value, as one array operation of its two loads. -/
theorem stored_eq (x0 : Vec Ideal S2000x64 .f32) (x1 : Vec Ideal S64 .f32) :
    k3_pay1 x1 x0 = addRow (M := 2000) (N := 64) x0 x1 := by
  unfold k3_pay1
  exact vec_addRow x0 x1 _ _ _

/-- An entry of the body's result on a block of rows is the entry of the operation on the whole array in the row the
    block's row is. -/
theorem block_entry (A : FVec Ideal S100000x64 .f32) (B : FVec Ideal S64 .f32)
    (x0 : Vec Ideal S2000x64 .f32) (x1 : Vec Ideal S64 .f32) (p : Fin 2000) (q : Fin 64) (P : Fin 100000)
    (h0 : x0 (ix2 p q) = A (ix2 P q)) (h1 : x1 (ix1 q) = B (ix1 q)) :
    k3_pay1 x1 x0 (ix2 p q) = addRow (M := 100000) (N := 64) A B (ix2 P q) := by
  rw [stored_eq, addRow_ix2, addRow_ix2, h0, h1]

/-- Where the three windows' blocks sit at grid point `t`: the array's and the result's at block row `t`, the bias at
    the origin. -/
theorem block_origin : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0)

/-- What point `t` writes back is block `t` of the operation on the arrays as the call finds them. -/
theorem flushed_eq (c : Dev nD) (t : Fin cfg3.N) :
    (dat3 V c).flushed 2 t = ((cfg3.win 2).blk t).view.read (Elt Ideal)
      (addRow (M := 100000) (N := 64) (V c main_v58) (V c main_arg4)) := by
  show (cfg3.win 2).cut (grid3.coords t) ((dat3 V c).after 2 t) = _
  rw [after3_2]
  unfold out3_2
  rw [View.canon_unit_zero origin2]
  simp only [View.ld_unit_zero (S := S64) origin1, View.ld_unit_zero (S := S2000x64) origin2]
  obtain ⟨e0, e1, e2, e4, e5⟩ := block_origin t
  funext j
  obtain ⟨p, q, rfl⟩ : ∃ (p : Fin 2000) (q : Fin 64), j = ix2 p q := ⟨j 0, j 1, eq_ix2 j⟩
  have hP : t.val * 2000 + p.val < 100000 := by
    have hN : cfg3.N = 50 := N_3
    have := t.isLt; have := p.isLt; omega
  have hE : ((cfg3.win 2).blk t).view.emb (ix2 p q) = ix2 (⟨t.val * 2000 + p.val, hP⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 64 + 1 * q.val = q.val; omega
  show k3_pay1 (iblk3 V c 1 t) (iblk3 V c 0 t) (ix2 p q)
      = addRow (M := 100000) (N := 64) (V c main_v58) (V c main_arg4) (((cfg3.win 2).blk t).view.emb (ix2 p q))
  rw [hE]
  refine block_entry (V c main_v58) (V c main_arg4) _ _ p q ⟨t.val * 2000 + p.val, hP⟩ ?_ ?_
  · show V c main_v58 (((cfg3.win 0).blk t).view.emb (ix2 p q)) = _
    refine congrArg (V c main_v58) ?_
    funext a; apply Fin.ext
    match a with
    | ⟨0, _⟩ => show win3_0.index t (0 : Fin 2) * 2000 + 1 * p.val = t.val * 2000 + p.val; omega
    | ⟨1, _⟩ => show win3_0.index t (1 : Fin 2) * 64 + 1 * q.val = q.val; omega
  · show V c main_arg4 (((cfg3.win 1).blk t).view.emb (ix1 q)) = _
    refine congrArg (V c main_arg4) ?_
    funext a; apply Fin.ext
    match a with
    | ⟨0, _⟩ => show win3_1.index t (0 : Fin 1) * 64 + 1 * q.val = q.val; omega

/-- An entry of the result array is in point `t`'s block iff each coordinate is in the block's range on its axis. -/
theorem mem_block (t : Fin cfg3.N) (i : S100000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v59).slice (win3_2.rect t)).set ↔ _
  rw [View.set_slice_whole, Rect.mem_set_unit]
  exact Iff.rfl

/-- Every entry of the result array is written back by some point: row `r` by point `r / 2000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  have ht : (i 0).val / 2000 < cfg3.N := by omega
  obtain ⟨-, -, -, e4, e5⟩ := block_origin ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 64 ≤ (i 1).val
      ∧ (i 1).val < win3_2.index ⟨(i 0).val / 2000, ht⟩ (1 : Fin 2) * 64 + 64
    rw [e5]
    omega

/-- After the call the result array is the bias added to every row of the array the call found. -/
theorem final (c : Dev nD) :
    (dat3 V c).arrAt 2 cfg3.N = addRow (M := 100000) (N := 64) (V c main_v58) (V c main_arg4) :=
  (dat3 V c).arrAt_eq_of_cover 2 _ (fun t _ => flushed_eq V c t) covered

end Cert.KernelIdeal.Region3

end
-- ==== Proof.Result.lean ====
/-
  The idealized kernel's result, as a function of its arguments.

  Boundary by boundary through the twelve segments, the buffers that matter hold the values the reference program
  computes at the same places, as functions of the arguments (the reference's stages):

    * after the first three stretches of host operations: the edges' sources and targets and the edges' factors;
    * after the first pipelined call: the product of the node features and the first weights (the call leaves the
      product of its two arrays, and the reference's general dot product is that product);
    * after the next stretch: the first layer's aggregation;
    * after the second call: that plus the first bias, rectified; after the third: its product with the second weights;
    * after the next stretch: the second layer's aggregation; after the fourth call: that plus the second bias;
    * after the last three stretches: the mean over each graph's nodes — the result.

  Every buffer read at a boundary was either just written there or is carried unchanged from where it was written (a
  pipelined call changes only its result array; a stretch of host operations only its operations' results), and the
  arguments are carried unchanged from the launch.
-/
import proofs.«103272_j26654567039528_1_alg».proof.Proof.Gen.KernelIdeal.Frame
import proofs.«103272_j26654567039528_1_alg».proof.Proof.HostGlue
import proofs.«103272_j26654567039528_1_alg».proof.Proof.Untouched
import proofs.«103272_j26654567039528_1_alg».proof.Proof.RefStages
import proofs.«103272_j26654567039528_1_alg».proof.Proof.Region0
import proofs.«103272_j26654567039528_1_alg».proof.Proof.Region1
import proofs.«103272_j26654567039528_1_alg».proof.Proof.Region2
import proofs.«103272_j26654567039528_1_alg».proof.Proof.Region3

set_option maxRecDepth 16384

noncomputable section

namespace Cert.KernelIdeal.Result

open Cert.KernelIdeal Cert.KernelIdeal.Gen Cert.KernelIdeal.HostGlue Cert.KernelIdeal.Untouched Cert.Layers
open Idealize.ShloMosaic Idealize.ShloMosaic.TcCoe Idealize.SL.Sem Idealize.ShloMosaic.StableHlo
open Cert.ReferenceIdeal.ReadP (val_main_v3 val_main_v6 val_main_v13 val_main_v14 val_main_cst_2 val_main_v15 val_main_v30
  val_main_v7 val_main_v43 val_main_v47 val_main_v48 val_main_v84 val_main_v87 val_main_v98)

variable (m : (ℓ : Loc nD τ sig) → Buf (Elt Ideal) ℓ) (ρ : Dev nD → PrngReg) (c : Dev nD)

/-! ## After the first stretch -/

theorem W1_sources : W1 m ρ c (Proc.devRef .tc main_v3) = val_main_v3 (F := Ideal) (m ((c.tc : Thread nD τ).loc main_arg5)) := sources_after (W0 m ρ c)
theorem W1_targets : W1 m ρ c (Proc.devRef .tc main_v6) = val_main_v6 (F := Ideal) (m ((c.tc : Thread nD τ).loc main_arg5)) := targets_after (W0 m ρ c)
theorem W1_positive : W1 m ρ c (Proc.devRef .tc main_v12) = val_main_v13 (F := Ideal) (m ((c.tc : Thread nD τ).loc main_arg5)) := positive_after (W0 m ρ c)
theorem W1_rsqrt : W1 m ρ c (Proc.devRef .tc main_v13) = val_main_v14 (F := Ideal) (m ((c.tc : Thread nD τ).loc main_arg5)) := rsqrt_after (W0 m ρ c)
theorem W1_zero : W1 m ρ c (Proc.devRef .tc main_cst_2) = val_main_cst_2 (F := Ideal) := zero_after (W0 m ρ c)

/-! ## After the second stretch -/

theorem W2_factors : W2 m ρ c (Proc.devRef .tc main_v14) = val_main_v15 (F := Ideal) (m ((c.tc : Thread nD τ).loc main_arg5)) :=
  (factors_after (W1 m ρ c) _ _ _ (W1_positive m ρ c) (W1_rsqrt m ρ c) (W1_zero m ρ c)).trans (factors_stage (m ((c.tc : Thread nD τ).loc main_arg5)))
theorem W2_sources : W2 m ρ c (Proc.devRef .tc main_v3) = val_main_v3 (F := Ideal) (m ((c.tc : Thread nD τ).loc main_arg5)) :=
  (keep_hostOps0_1_main_v3 (W1 m ρ c)).trans (W1_sources m ρ c)
theorem W2_targets : W2 m ρ c (Proc.devRef .tc main_v6) = val_main_v6 (F := Ideal) (m ((c.tc : Thread nD τ).loc main_arg5)) :=
  (keep_hostOps0_1_main_v6 (W1 m ρ c)).trans (W1_targets m ρ c)

/-! ## After the third stretch: the first call's entry -/

theorem W3_edge_factors : W3 m ρ c (Proc.devRef .tc main_v29) = val_main_v30 (F := Ideal) (m ((c.tc : Thread nD τ).loc main_arg5)) :=
  edge_factors_after (W2 m ρ c) (m ((c.tc : Thread nD τ).loc main_arg5)) (W2_sources m ρ c) (W2_targets m ρ c) (W2_factors m ρ c)
theorem W3_sources : W3 m ρ c (Proc.devRef .tc main_v3) = val_main_v3 (F := Ideal) (m ((c.tc : Thread nD τ).loc main_arg5)) :=
  (keep_hostOps0_2_main_v3 (W2 m ρ c)).trans (W2_sources m ρ c)
theorem W3_targets : W3 m ρ c (Proc.devRef .tc main_v6) = val_main_v6 (F := Ideal) (m ((c.tc : Thread nD τ).loc main_arg5)) :=
  (keep_hostOps0_2_main_v6 (W2 m ρ c)).trans (W2_targets m ρ c)
theorem W3_arg0 : W3 m ρ c (Proc.devRef .tc main_arg0) = (m ((c.tc : Thread nD τ).loc main_arg0)) :=
  (keep_hostOps0_2_main_arg0 (W2 m ρ c)).trans ((keep_hostOps0_1_main_arg0 (W1 m ρ c)).trans (keep_hostOps0_main_arg0 (W0 m ρ c)))
theorem W3_arg1 : W3 m ρ c (Proc.devRef .tc main_arg1) = (m ((c.tc : Thread nD τ).loc main_arg1)) :=
  (keep_hostOps0_2_main_arg1 (W2 m ρ c)).trans ((keep_hostOps0_1_main_arg1 (W1 m ρ c)).trans (keep_hostOps0_main_arg1 (W0 m ρ c)))
theorem W3_arg2 : W3 m ρ c (Proc.devRef .tc main_arg2) = (m ((c.tc : Thread nD τ).loc main_arg2)) :=
  (keep_hostOps0_2_main_arg2 (W2 m ρ c)).trans ((keep_hostOps0_1_main_arg2 (W1 m ρ c)).trans (keep_hostOps0_main_arg2 (W0 m ρ c)))
theorem W3_arg3 : W3 m ρ c (Proc.devRef .tc main_arg3) = (m ((c.tc : Thread nD τ).loc main_arg3)) :=
  (keep_hostOps0_2_main_arg3 (W2 m ρ c)).trans ((keep_hostOps0_1_main_arg3 (W1 m ρ c)).trans (keep_hostOps0_main_arg3 (W0 m ρ c)))
theorem W3_arg4 : W3 m ρ c (Proc.devRef .tc main_arg4) = (m ((c.tc : Thread nD τ).loc main_arg4)) :=
  (keep_hostOps0_2_main_arg4 (W2 m ρ c)).trans ((keep_hostOps0_1_main_arg4 (W1 m ρ c)).trans (keep_hostOps0_main_arg4 (W0 m ρ c)))
theorem W3_arg6 : W3 m ρ c (Proc.devRef .tc main_arg6) = (m ((c.tc : Thread nD τ).loc main_arg6)) :=
  (keep_hostOps0_2_main_arg6 (W2 m ρ c)).trans ((keep_hostOps0_1_main_arg6 (W1 m ρ c)).trans (keep_hostOps0_main_arg6 (W0 m ρ c)))

/-! ## After the first call -/

theorem W4_product : W4 m ρ c (Proc.devRef .tc main_v30) = val_main_v7 (F := Ideal) (m ((c.tc : Thread nD τ).loc main_arg0)) (m ((c.tc : Thread nD τ).loc main_arg1)) :=
  (W4_arr m ρ c 2).trans ((Cert.KernelIdeal.Region0.final (V3 m ρ) c).trans
    ((congrArg₂ (matProd (M := 100000) (K := 128) (N := 128)) (W3_arg0 m ρ c) (W3_arg1 m ρ c)).trans
      (Cert.ReferenceIdeal.Stages.product1 _ _).symm))
theorem W4_sources : W4 m ρ c (Proc.devRef .tc main_v3) = val_main_v3 (F := Ideal) (m ((c.tc : Thread nD τ).loc main_arg5)) :=
  (W4_of_ne m ρ c main_v3 (by decide)).trans (W3_sources m ρ c)
theorem W4_targets : W4 m ρ c (Proc.devRef .tc main_v6) = val_main_v6 (F := Ideal) (m ((c.tc : Thread nD τ).loc main_arg5)) :=
  (W4_of_ne m ρ c main_v6 (by decide)).trans (W3_targets m ρ c)
theorem W4_edge_factors : W4 m ρ c (Proc.devRef .tc main_v29) = val_main_v30 (F := Ideal) (m ((c.tc : Thread nD τ).loc main_arg5)) :=
  (W4_of_ne m ρ c main_v29 (by decide)).trans (W3_edge_factors m ρ c)
theorem W4_arg2 : W4 m ρ c (Proc.devRef .tc main_arg2) = (m ((c.tc : Thread nD τ).loc main_arg2)) := (W4_of_ne m ρ c main_arg2 (by decide)).trans (W3_arg2 m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)
theorem W4_arg6 : W4 m ρ c (Proc.devRef .tc main_arg6) = (m ((c.tc : Thread nD τ).loc main_arg6)) := (W4_of_ne m ρ c main_arg6 (by decide)).trans (W3_arg6 m ρ c)

/-! ## After the fourth stretch: the second call's entry -/

theorem W5_aggregate : W5 m ρ c (Proc.devRef .tc main_v43) = val_main_v43 (F := Ideal) (m ((c.tc : Thread nD τ).loc main_arg0)) (m ((c.tc : Thread nD τ).loc main_arg1)) (m ((c.tc : Thread nD τ).loc main_arg5)) :=
  aggregate1_after (W4 m ρ c) (m ((c.tc : Thread nD τ).loc main_arg0)) (m ((c.tc : Thread nD τ).loc main_arg1)) (m ((c.tc : Thread nD τ).loc main_arg5)) (W4_product m ρ c) (W4_sources m ρ c) (W4_targets m ρ c) (W4_edge_factors m ρ c)
theorem W5_sources : W5 m ρ c (Proc.devRef .tc main_v3) = val_main_v3 (F := Ideal) (m ((c.tc : Thread nD τ).loc main_arg5)) :=
  (keep_hostOps1_main_v3 (W4 m ρ c)).trans (W4_sources m ρ c)
theorem W5_targets : W5 m ρ c (Proc.devRef .tc main_v6) = val_main_v6 (F := Ideal) (m ((c.tc : Thread nD τ).loc main_arg5)) :=
  (keep_hostOps1_main_v6 (W4 m ρ c)).trans (W4_targets m ρ c)
theorem W5_edge_factors : W5 m ρ c (Proc.devRef .tc main_v29) = val_main_v30 (F := Ideal) (m ((c.tc : Thread nD τ).loc main_arg5)) :=
  (keep_hostOps1_main_v29 (W4 m ρ c)).trans (W4_edge_factors m ρ c)
theorem W5_arg2 : W5 m ρ c (Proc.devRef .tc main_arg2) = (m ((c.tc : Thread nD τ).loc main_arg2)) := (keep_hostOps1_main_arg2 (W4 m ρ c)).trans (W4_arg2 m ρ c)
theorem W5_arg3 : W5 m ρ c (Proc.devRef .tc main_arg3) = (m ((c.tc : Thread nD τ).loc main_arg3)) := (keep_hostOps1_main_arg3 (W4 m ρ c)).trans (W4_arg3 m ρ c)
theorem W5_arg4 : W5 m ρ c (Proc.devRef .tc main_arg4) = (m ((c.tc : Thread nD τ).loc main_arg4)) := (keep_hostOps1_main_arg4 (W4 m ρ c)).trans (W4_arg4 m ρ c)
theorem W5_arg6 : W5 m ρ c (Proc.devRef .tc main_arg6) = (m ((c.tc : Thread nD τ).loc main_arg6)) := (keep_hostOps1_main_arg6 (W4 m ρ c)).trans (W4_arg6 m ρ c)

/-! ## After the second call -/

theorem W6_rectified : W6 m ρ c (Proc.devRef .tc main_v44) = val_main_v47 (F := Ideal) (m ((c.tc : Thread nD τ).loc main_arg0)) (m ((c.tc : Thread nD τ).loc main_arg1)) (m ((c.tc : Thread nD τ).loc main_arg2)) (m ((c.tc : Thread nD τ).loc main_arg5)) :=
  (W6_arr m ρ c 2).trans ((Cert.KernelIdeal.Region1.final (V5 m ρ) c).trans
    ((congrArg₂ (reluRow (M := 100000) (N := 128)) (W5_aggregate m ρ c) (W5_arg2 m ρ c)).trans
      (Cert.ReferenceIdeal.Stages.rectified _ _ _ _).symm))
theorem W6_sources : W6 m ρ c (Proc.devRef .tc main_v3) = val_main_v3 (F := Ideal) (m ((c.tc : Thread nD τ).loc main_arg5)) :=
  (W6_of_ne m ρ c main_v3 (by decide)).trans (W5_sources m ρ c)
theorem W6_targets : W6 m ρ c (Proc.devRef .tc main_v6) = val_main_v6 (F := Ideal) (m ((c.tc : Thread nD τ).loc main_arg5)) :=
  (W6_of_ne m ρ c main_v6 (by decide)).trans (W5_targets m ρ c)
theorem W6_edge_factors : W6 m ρ c (Proc.devRef .tc main_v29) = val_main_v30 (F := Ideal) (m ((c.tc : Thread nD τ).loc main_arg5)) :=
  (W6_of_ne m ρ c main_v29 (by decide)).trans (W5_edge_factors m ρ c)
theorem W6_arg3 : W6 m ρ c (Proc.devRef .tc main_arg3) = (m ((c.tc : Thread nD τ).loc main_arg3)) := (W6_of_ne m ρ c main_arg3 (by decide)).trans (W5_arg3 m ρ c)
theorem W6_arg4 : W6 m ρ c (Proc.devRef .tc main_arg4) = (m ((c.tc : Thread nD τ).loc main_arg4)) := (W6_of_ne m ρ c main_arg4 (by decide)).trans (W5_arg4 m ρ c)
theorem W6_arg6 : W6 m ρ c (Proc.devRef .tc main_arg6) = (m ((c.tc : Thread nD τ).loc main_arg6)) := (W6_of_ne m ρ c main_arg6 (by decide)).trans (W5_arg6 m ρ c)

/-! ## After the third call -/

theorem W7_product : W7 m ρ c (Proc.devRef .tc main_v45) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  (W7_arr m ρ c 2).trans ((Cert.KernelIdeal.Region2.final (V6 m ρ) c).trans
    ((congrArg₂ (matProd (M := 100000) (K := 128) (N := 64)) (W6_rectified m ρ c) (W6_arg3 m ρ c)).trans
      (Cert.ReferenceIdeal.Stages.product2 _ _ _ _ _).symm))
theorem W7_sources : W7 m ρ c (Proc.devRef .tc main_v3) = val_main_v3 (F := Ideal) (m ((c.tc : Thread nD τ).loc main_arg5)) :=
  (W7_of_ne m ρ c main_v3 (by decide)).trans (W6_sources m ρ c)
theorem W7_targets : W7 m ρ c (Proc.devRef .tc main_v6) = val_main_v6 (F := Ideal) (m ((c.tc : Thread nD τ).loc main_arg5)) :=
  (W7_of_ne m ρ c main_v6 (by decide)).trans (W6_targets m ρ c)
theorem W7_edge_factors : W7 m ρ c (Proc.devRef .tc main_v29) = val_main_v30 (F := Ideal) (m ((c.tc : Thread nD τ).loc main_arg5)) :=
  (W7_of_ne m ρ c main_v29 (by decide)).trans (W6_edge_factors m ρ c)
theorem W7_arg4 : W7 m ρ c (Proc.devRef .tc main_arg4) = (m ((c.tc : Thread nD τ).loc main_arg4)) := (W7_of_ne m ρ c main_arg4 (by decide)).trans (W6_arg4 m ρ c)
theorem W7_arg6 : W7 m ρ c (Proc.devRef .tc main_arg6) = (m ((c.tc : Thread nD τ).loc main_arg6)) := (W7_of_ne m ρ c main_arg6 (by decide)).trans (W6_arg6 m ρ c)

/-! ## After the fifth stretch: the fourth call's entry -/

theorem W8_aggregate : W8 m ρ c (Proc.devRef .tc main_v58) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  aggregate2_after (W7 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (W7_product m ρ c) (W7_sources m ρ c) (W7_targets m ρ c)
    (W7_edge_factors m ρ c)
theorem W8_arg4 : W8 m ρ c (Proc.devRef .tc main_arg4) = (m ((c.tc : Thread nD τ).loc main_arg4)) := (keep_hostOps3_main_arg4 (W7 m ρ c)).trans (W7_arg4 m ρ c)
theorem W8_arg6 : W8 m ρ c (Proc.devRef .tc main_arg6) = (m ((c.tc : Thread nD τ).loc main_arg6)) := (keep_hostOps3_main_arg6 (W7 m ρ c)).trans (W7_arg6 m ρ c)

/-! ## After the fourth call -/

theorem W9_biased : W9 m ρ c (Proc.devRef .tc main_v59) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((Cert.KernelIdeal.Region3.final (V8 m ρ) c).trans
    ((congrArg₂ (addRow (M := 100000) (N := 64)) (W8_aggregate m ρ c) (W8_arg4 m ρ c)).trans
      (Cert.ReferenceIdeal.Stages.biased _ _ _ _ _ _).symm))
theorem W9_arg6 : W9 m ρ c (Proc.devRef .tc main_arg6) = (m ((c.tc : Thread nD τ).loc main_arg6)) := (W9_of_ne m ρ c main_arg6 (by decide)).trans (W8_arg6 m ρ c)

/-! ## The result -/

/-- The result buffer at the end of the run holds the reference's result, as a function of the arguments. -/
theorem result : W12 m ρ c (Proc.devRef .tc main_v70)
    = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  pool_after (W9 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (W9_biased m ρ c) (W9_arg6 m ρ c)

end Cert.KernelIdeal.Result

end
-- ==== Proof.lean ====
/-
  A two-layer graph convolution with mean pooling, computed by four pipelined passes among host operations, against the
  same network written with array operations only: the two programs end with equal results as extended reals.

  The network. From the edge list (every edge, then one self loop per node) it counts the edges into each node, takes the
  inverse square root `d` of each positive count (zero where there is none), and gives edge `e` from `s` to `t` the factor
  `d s · d t`. A layer sends node features `h` to `A (h · W) + b`, where `A` gathers the rows of `h · W` at the edges'
  sources, scales row `e` by the edge's factor and adds the rows up at the edges' targets, and `b` is added to every row.
  The network is layer one, the rectifier, layer two, and then for every graph the sum of its nodes' rows divided by the
  number of its nodes (at least one).

  The two programs. The reference writes the products as general dot products and everything else as host operations. The
  kernel computes each product, and each "add the bias (and rectify)", by a pipelined call over fifty blocks of 2000 rows,
  and runs the very same host operations in between; it computes the edges' factors once where the reference computes them
  once per layer. On the extended reals a change of float format is the identity, a matrix product accumulated into zero is
  the plain sum of products, and each of these four operations acts on every row by itself, so the pass over blocks of rows
  leaves exactly the whole-array operation's result. No law of arithmetic beyond that is used: both programs are the same
  composition of the same functions, and the finiteness of the inputs is never needed.

  The proof. Every buffer of the kernel's run is followed through the run's twelve segments (`WholeRun`); each pipelined
  call leaves its whole-array operation (`Region0` … `Region3`); each stretch of host operations computes the stage the
  reference computes at the same place (`HostGlue`, `Untouched`, `RefStages`); together the kernel's result buffer ends at the
  reference's result as a function of the arguments (`Result`), which is where the reference's own run leaves its result.
-/
import proofs.«103272_j26654567039528_1_alg».proof.Defs
import proofs.«103272_j26654567039528_1_alg».proof.Proof.Gen.Kernel
import proofs.«103272_j26654567039528_1_alg».proof.Proof.Gen.Kernel.Frame
import proofs.«103272_j26654567039528_1_alg».proof.Proof.Gen.KernelIdeal
import proofs.«103272_j26654567039528_1_alg».proof.Proof.Gen.KernelIdeal.Frame
import proofs.«103272_j26654567039528_1_alg».proof.Proof.Gen.ReferenceIdeal
import proofs.«103272_j26654567039528_1_alg».proof.Proof.Gen.Pre_finite_inputs
import proofs.«103272_j26654567039528_1_alg».proof.Proof.RefRunP
import proofs.«103272_j26654567039528_1_alg».proof.Proof.RefReadP
import proofs.«103272_j26654567039528_1_alg».proof.Proof.WholeRun
import proofs.«103272_j26654567039528_1_alg».proof.Proof.Result
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- The idealized kernel runs, and leaves its arguments as they were. -/
theorem frame_kernelIdeal : Cert.frame_KernelIdeal := fun m ρ _ => Cert.KernelIdeal.Gen.frame m ρ

/-- The idealized reference runs, and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: the idealized kernel is the kernel's own text read on the extended reals. -/
theorem preserves : Cert.preserves_Kernel_KernelIdeal := trivial

/-- From memories that agree on the arguments both idealized programs run, and end with the same result: the kernel's
    result buffer ends at the reference's result as a function of the arguments, and so does the reference's. -/
theorem algebraic : Cert.algebraic_KernelIdeal_ReferenceIdeal := by
  intro m ρ m' ρ' _ hagree
  refine ⟨_, Cert.KernelIdeal.WholeRun.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v98_eq, (hagree c).1, (hagree c).2.1, (hagree c).2.2.1, (hagree c).2.2.2.1,
    (hagree c).2.2.2.2.1, (hagree c).2.2.2.2.2.1, (hagree c).2.2.2.2.2.2]
  exact (Cert.KernelIdeal.Result.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
